-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x500000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 36
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x500000, .i32⟩
  | .hbm, ⟨6, _⟩ => ⟨S500000, .i32⟩
  | .hbm, ⟨7, _⟩ => ⟨S1x500000, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .f32⟩
  | .hbm, ⟨19, _⟩ => ⟨S50000x128, .f32⟩
  | .hbm, ⟨20, _⟩ => ⟨S500000x1, .i32⟩
  | .hbm, ⟨21, _⟩ => ⟨S50000x128, .f32⟩
  | .hbm, ⟨22, _⟩ => ⟨S_, .f32⟩
  | .hbm, ⟨23, _⟩ => ⟨S500000, .f32⟩
  | .hbm, ⟨24, _⟩ => ⟨S_, .f32⟩
  | .hbm, ⟨25, _⟩ => ⟨S50000, .f32⟩
  | .hbm, ⟨26, _⟩ => ⟨S500000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x500000, .i32⟩
  | .hbm, ⟨6, _⟩ => ⟨S500000, .i32⟩
  | .hbm, ⟨7, _⟩ => ⟨S1x500000, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .f32⟩
  | .hbm, ⟨19, _⟩ => ⟨S50000x128, .f32⟩
  | .hbm, ⟨20, _⟩ => ⟨S500000x1, .i32⟩
  | .hbm, ⟨21, _⟩ => ⟨S50000x128, .f32⟩
  | .hbm, ⟨22, _⟩ => ⟨S_, .f32⟩
  | .hbm, ⟨23, _⟩ => ⟨S500000, .f32⟩
  | .hbm, ⟨24, _⟩ => ⟨S_, .f32⟩
  | .hbm, ⟨25, _⟩ => ⟨S50000, .f32⟩
  | .hbm, ⟨26, _⟩ => ⟨S500000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer both programs compute, as one function of the argument arrays.

  A graph convolution with mean aggregation: every node p has a feature row x p (128 numbers) and the mean of the rows
  of the nodes that send it a message, mean p. The layer's output at node p and channel q is

      max (Σ_k mean p k · W_l k q  +  b q  +  Σ_k x p k · W_r k q) 0,

  the sums over the 128 input channels, read on the extended reals in exactly this grouping: the neighbours' product
  first, then the bias, then the node's own product, then the positive part. Entry (p, q) depends on row p of mean and
  of x, on column q of the two weight matrices and on entry q of the bias, and on nothing else; so the layer computed on
  a block of rows is the block of rows of the layer. Nothing here needs an entry to be finite: both programs build the
  same expression, and no law of arithmetic beyond 0 + s = s is used to compare them.
-/
import Idealize.ShloMosaic.Lib.ValueIdx
import Idealize.ShloMosaic.PureOps.Ideal.Laws

noncomputable section

open scoped BigOperators

namespace Cert.Spec

open Idealize.ShloMosaic Idealize.ShloMosaic.ValueIdx

/-- One output entry from the data it depends on: a row of the aggregated features and a row of the node's own
    features, the matching columns of the two weight matrices, and the bias entry. -/
def sageEntry (meanRow xRow wlCol wrCol : Fin 128 → EReal) (b : EReal) : EReal :=
  max (((∑ k : Fin 128, meanRow k * wlCol k) + b) + ∑ k : Fin 128, xRow k * wrCol k) 0

/-- The layer on n nodes: entry (p, q) is `sageEntry` of row p of `mean` and of `x`, column q of `wl` and of `wr`, and
    entry q of the bias. -/
def sage {n : Nat} (mean x : (⟨2, ![n, 128]⟩ : Shape).Idx → EReal) (wl wr : (⟨2, ![128, 128]⟩ : Shape).Idx → EReal)
    (b : (⟨1, ![128]⟩ : Shape).Idx → EReal) : (⟨2, ![n, 128]⟩ : Shape).Idx → EReal :=
  fun j => sageEntry (fun k => mean (ix2 (j 0) k)) (fun k => x (ix2 (j 0) k)) (fun k => wl (ix2 k (j 1)))
    (fun k => wr (ix2 k (j 1))) (b (ix1 (j 1)))

/-- The layer read at an index given by its coordinates. -/
theorem sage_apply {n : Nat} (mean x : (⟨2, ![n, 128]⟩ : Shape).Idx → EReal) (wl wr : (⟨2, ![128, 128]⟩ : Shape).Idx → EReal)
    (b : (⟨1, ![128]⟩ : Shape).Idx → EReal) (p : Fin n) (q : Fin 128) :
    sage mean x wl wr b (ix2 p q) = sageEntry (fun k => mean (ix2 p k)) (fun k => x (ix2 p k)) (fun k => wl (ix2 k q))
      (fun k => wr (ix2 k q)) (b (ix1 q)) := rfl

end Cert.Spec

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.Payload.lean ====
/-
  What the kernel's body stores, read one entry at a time.

  The body loads a block of 2000 rows of the aggregated features and the same rows of the node features, the two weight
  matrices and the bias row, and stores ONE value: the positive part of (block · W_l + bias row over all rows) + block · W_r.
  The narrowing of the four matrix operands to a shorter float format is the identity on the extended reals, and a matrix
  product accumulated into the zero matrix is the plain sum over the contracted channel. So entry (p, q) of the stored
  value is the layer's entry on row p of the two blocks, column q of the weights and entry q of the bias row.
-/
import proofs.«148888_j70763881169369_1_alg».proof.Proof.Gen.KernelIdeal.Skeleton
import proofs.«148888_j70763881169369_1_alg».proof.Proof.Spec
import proofs.«148888_j70763881169369_1_alg».proof.Proof.LibMatmulRows
import Idealize.ShloMosaic.Lib.ValueLayout
import Idealize.ShloMosaic.Lib.Pipeline.Value

noncomputable section

open scoped BigOperators

namespace Cert.Sage

open Cert.KernelIdeal Cert.KernelIdeal.Gen Idealize.ShloMosaic Idealize.ShloMosaic.ValueIdx

/-- Entry (p, q) of the value the body stores is the layer's entry on row p of the two loaded blocks. -/
theorem payload_apply (v0 v3 : Vec Ideal S2000x128 .f32) (v5 v7 : Vec Ideal S128x128 .f32) (v11 : Vec Ideal S1x128 .f32)
    (p : Fin 2000) (q : Fin 128) :
    k0_pay1 (F := Ideal) v0 v3 v5 v7 v11 (ix2 p q)
      = Cert.Spec.sageEntry (fun k => v0 (ix2 p k)) (fun k => v3 (ix2 p k)) (fun k => v5 (ix2 k q)) (fun k => v7 (ix2 k q))
          (v11 (ix2 (0 : Fin 1) q)) := by
  unfold k0_pay1 Cert.Spec.sageEntry
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · refine (Cert.Bridge.matmul_plain_zero_apply 2000 128 128 none _ _ p q).trans ?_
      rw [shapeCast_self]
      rfl
    · refine (broadcastTo_1b_ab_apply _ _ p q).trans ?_
      rw [shapeCast_self]
  · exact Cert.Bridge.matmul_plain_zero_apply 2000 128 128 none _ _ p q

end Cert.Sage

end
-- ==== Proof.HostSide.lean ====
/-
  The two arrays the kernel's host prefix prepares for the region.

  Before the region the kernel's program computes the aggregated features with the very operations the reference uses
  (the gather of the source nodes' rows, their sum per destination node, the count of messages per node raised to at least
  one, the quotient), and lays the bias vector out as a 1 × 128 row. The first is the reference's own stage for the
  aggregated features, as a term of the two arguments it depends on, and is never opened; the second, read at (0, q), is
  the bias at q.
-/
import proofs.«148888_j70763881169369_1_alg».proof.Proof.Gen.KernelIdeal.Frame
import proofs.«148888_j70763881169369_1_alg».proof.Proof.Gen.ReferenceIdeal.Read
import Idealize.ShloMosaic.Lib.StableHlo.Run
import Idealize.ShloMosaic.Lib.ValueLayout

noncomputable section

namespace Cert.Sage

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

set_option maxHeartbeats 400000 in
/-- The region finds, as its first operand, the aggregated features: the reference's stage of that name at the launch
    contents of the node features and of the edge list. -/
theorem V_mean (c : Dev nD) :
    (V m c main_v22 : S50000x128.Idx → EReal)
      = Cert.ReferenceIdeal.Read.val_main_v22 (F := Ideal) (m ((c : Thread nD τ).loc main_arg0)) (m ((c : Thread nD τ).loc main_arg1)) := by
  dsimp only [V, hostOps0]
  after_results
  unfold Cert.ReferenceIdeal.Read.val_main_v22 Cert.ReferenceIdeal.Read.val_main_v21 Cert.ReferenceIdeal.Read.val_main_v20
    Cert.ReferenceIdeal.Read.val_main_v19 Cert.ReferenceIdeal.Read.val_main_v18 Cert.ReferenceIdeal.Read.val_main_cst_3
    Cert.ReferenceIdeal.Read.val_main_v17 Cert.ReferenceIdeal.Read.val_main_v16 Cert.ReferenceIdeal.Read.val_main_v15
    Cert.ReferenceIdeal.Read.val_main_cst_2 Cert.ReferenceIdeal.Read.val_main_v14 Cert.ReferenceIdeal.Read.val_main_cst_1
    Cert.ReferenceIdeal.Read.val_main_v13 Cert.ReferenceIdeal.Read.val_main_v12 Cert.ReferenceIdeal.Read.val_main_v11
    Cert.ReferenceIdeal.Read.val_main_cst Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_c_0 Cert.ReferenceIdeal.Read.val_main_v5 Cert.ReferenceIdeal.Read.val_main_v4
    Cert.ReferenceIdeal.Read.val_main_c Cert.ReferenceIdeal.Read.val_main_v3 Cert.ReferenceIdeal.Read.val_main_v2
    Cert.ReferenceIdeal.Read.val_main_v1 Cert.ReferenceIdeal.Read.val_main_v0
  rfl

/-- The region finds, as its bias operand, the bias vector recast as one row. -/
theorem V_biasRow (c : Dev nD) :
    (V m c main_v23 : S1x128.Idx → EReal)
      = shapeCast S1x128 (m ((c : Thread nD τ).loc main_arg3) : S128.Idx → EReal) shapeCasts_S128_S1x128 := by
  dsimp only [V, hostOps0]
  after_results
  rfl

/-- Entry (0, q) of that row is entry q of the bias. -/
theorem V_biasRow_apply (c : Dev nD) (q : Fin 128) :
    (V m c main_v23 : S1x128.Idx → EReal) (ix2 (0 : Fin 1) q) = (m ((c : Thread nD τ).loc main_arg3) : S128.Idx → EReal) (ix1 q) := by
  rw [V_biasRow]
  exact shapeCast_a_1a_apply _ _ 0 q

end Cert.Sage

end
-- ==== Proof.Blocks.lean ====
/-
  From what each grid point writes back to the whole result array.

  The grid has 25 points. Point t stages rows 2000·t … 2000·t + 1999 of the aggregated features and of the node features,
  the two weight matrices and the bias row whole, and writes back rows 2000·t … 2000·t + 1999 of the result. An entry of
  the layer depends only on its own row of the two feature arrays, so the block written back at point t is the block of
  rows of the layer of the whole arrays; the 25 blocks cover the 50000 rows, so the result array ends holding the layer.
-/
import proofs.«148888_j70763881169369_1_alg».proof.Proof.Gen.KernelIdeal.Value
import proofs.«148888_j70763881169369_1_alg».proof.Proof.Payload
import proofs.«148888_j70763881169369_1_alg».proof.Proof.HostSide
import Idealize.ShloMosaic.Lib.Pipeline.Value
import Idealize.ShloMosaic.Lib.Tactic

noncomputable section

open scoped BigOperators

namespace Cert.Sage

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the two feature windows and the result window are at block row t, block
    column 0; the weights and the bias row stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 2000·t + p of the array. -/
def rowOf (t : Fin cfg0.N) (p : Fin 2000) : Fin 50000 :=
  ⟨2000 * t.val + p.val, by
    have h : t.val < 25 := lt_of_lt_of_eq t.isLt (N_0 : cfg0.N = 25)
    have := p.isLt
    omega⟩

/-- The aggregated-features window at point t, read at (p, k), is the array at (2000·t + p, k). -/
theorem meanBlock_apply (c : Dev nD) (t : Fin cfg0.N) (p : Fin 2000) (k : Fin 128) :
    (iblk m c 0 t : Vec Ideal S2000x128 .f32) (ix2 p k) = (V m c main_v22 : S50000x128.Idx → EReal) (ix2 (rowOf t p) k) := by
  obtain ⟨e0, e1, -⟩ := index_facts t
  unfold iblk
  rw [View.read_apply]
  show V m c main_v22 _ = V m c main_v22 _
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The node-features window at point t, read at (p, k), is the argument at (2000·t + p, k). -/
theorem xBlock_apply (c : Dev nD) (t : Fin cfg0.N) (p : Fin 2000) (k : Fin 128) :
    (iblk m c 1 t : Vec Ideal S2000x128 .f32) (ix2 p k) = (V m c main_arg0 : S50000x128.Idx → EReal) (ix2 (rowOf t p) k) := by
  obtain ⟨-, -, e0, e1, -⟩ := index_facts t
  unfold iblk
  rw [View.read_apply]
  show V m c main_arg0 _ = V m c main_arg0 _
  refine congrArg _ (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The first weight matrix is staged whole at every point. -/
theorem wlBlock_apply (c : Dev nD) (t : Fin cfg0.N) (k q : Fin 128) :
    (iblk m c 2 t : Vec Ideal S128x128 .f32) (ix2 k q) = (V m c main_arg2 : S128x128.Idx → EReal) (ix2 k q) := by
  obtain ⟨-, -, -, -, e0, e1, -⟩ := index_facts t
  unfold iblk
  rw [View.read_apply]
  show V m c main_arg2 _ = V m c main_arg2 _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias row is staged whole at every point. -/
theorem biasBlock_apply (c : Dev nD) (t : Fin cfg0.N) (q : Fin 128) :
    (iblk m c 3 t : Vec Ideal S1x128 .f32) (ix2 (0 : Fin 1) q) = (V m c main_v23 : S1x128.Idx → EReal) (ix2 (0 : Fin 1) q) := by
  obtain ⟨-, -, -, -, -, -, e0, e1, -⟩ := index_facts t
  unfold iblk
  rw [View.read_apply]
  show V m c main_v23 _ = V m c main_v23 _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The second weight matrix is staged whole at every point. -/
theorem wrBlock_apply (c : Dev nD) (t : Fin cfg0.N) (k q : Fin 128) :
    (iblk m c 4 t : Vec Ideal S128x128 .f32) (ix2 k q) = (V m c main_arg4 : S128x128.Idx → EReal) (ix2 k q) := by
  obtain ⟨-, -, -, -, -, -, -, -, e0, e1, -⟩ := index_facts t
  unfold iblk
  rw [View.read_apply]
  show V m c main_arg4 _ = V m c main_arg4 _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The result array the kernel's program ends with: the layer of the aggregated features, the node features and the
    parameters as launched. -/
def result (c : Dev nD) : S50000x128.Idx → EReal :=
  Cert.Spec.sage
    (Cert.ReferenceIdeal.Read.val_main_v22 (F := Ideal) (m ((c : Thread nD τ).loc main_arg0)) (m ((c : Thread nD τ).loc main_arg1)))
    (m ((c : Thread nD τ).loc main_arg0)) (m ((c : Thread nD τ).loc main_arg2)) (m ((c : Thread nD τ).loc main_arg4))
    (m ((c : Thread nD τ).loc main_arg3))

/-- The result window's block at point t, entry (p, q), sits at (2000·t + p, q) of the array. -/
theorem resultBlock_emb (t : Fin cfg0.N) (p : Fin 2000) (q : Fin 128) :
    ((cfg0.win 5).blk t).view.emb (ix2 p q) = (ix2 (rowOf t p) q : S50000x128.Idx) := by
  obtain ⟨-, -, -, -, -, -, -, -, -, -, e0, e1⟩ := index_facts t
  refine funext fun a => Fin.ext ?_
  match a with
  | ⟨0, _⟩ => show win0_5.index t (0 : Fin 2) * 2000 + 1 * p.val = 2000 * t.val + p.val; rw [e0]; omega
  | ⟨1, _⟩ => show win0_5.index t (1 : Fin 2) * 128 + 1 * q.val = q.val; rw [e1]; omega

/-- What point t writes back is block t of the layer. -/
theorem flushed_eq (c : Dev nD) (t : Fin cfg0.N) :
    (dats m 0 c).flushed 5 t = ((cfg0.win 5).blk t).view.read (Elt Ideal) (result m c) := by
  rw [flushed5]
  unfold out0_5
  rw [View.canon_unit_zero zero_offsets]
  simp only [View.ld_unit_zero (S := S2000x128) zero_offsets, View.ld_unit_zero (S := S128x128) zero_offsets,
    View.ld_unit_zero (S := S1x128) zero_offsets]
  funext y
  obtain ⟨p, q, rfl⟩ : ∃ (p : Fin 2000) (q : Fin 128), y = ix2 p q := ⟨y 0, y 1, eq_ix2 y⟩
  show k0_pay1 (F := Ideal) (iblk m c 0 t) (iblk m c 1 t) (iblk m c 2 t) (iblk m c 4 t) (iblk m c 3 t) (ix2 p q)
    = result m c (((cfg0.win 5).blk t).view.emb (ix2 p q))
  refine (payload_apply (iblk m c 0 t) (iblk m c 1 t) (iblk m c 2 t) (iblk m c 4 t) (iblk m c 3 t) p q).trans ?_
  rw [resultBlock_emb t p q]
  unfold result
  rw [Cert.Spec.sage_apply, ← V_mean m c, ← V_main_arg0 m c, ← V_main_arg2 m c, ← V_main_arg4 m c, ← V_biasRow_apply m c q]
  simp only [meanBlock_apply m c t, xBlock_apply m c t, wlBlock_apply m c t, wrBlock_apply m c t, biasBlock_apply m c t]

/-- An index of the result array is in point t's block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v24).slice (win0_5.rect t)).set ↔ _
  rw [View.set_slice_whole, Rect.mem_set_unit]
  exact Iff.rfl

/-- Every row of the result lies in the block of the point numbered by the row divided by 2000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, e0, e1⟩ := index_facts t
  have ht : t.val = (i 0).val / 2000 := rfl
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000
              rw [e0, ht]; omega
  | ⟨1, _⟩ => show win0_5.index t (1 : Fin 2) * 128 ≤ (i 1).val ∧ (i 1).val < win0_5.index t (1 : Fin 2) * 128 + 128
              rw [e1]; omega

/-- So after the region the result array holds the layer. -/
theorem final (c : Dev nD) : (dats m 0 c).arrAt 5 cfg0.N = result m c :=
  (dats m 0 c).arrAt_eq_of_cover 5 (result m c) (fun t _ => flushed_eq m c t) covered

/-- The kernel's program runs to the layer in its result array, its arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Sage

end
-- ==== Proof.Reference.lean ====
/-
  The reference program's result is the layer.

  The reference computes the aggregated features `mean` (a gather of the source nodes' rows, their sum per destination
  node, divided by the number of messages, at least one) and then, as whole-array operations, mean · W_l, plus the bias
  laid over every row, plus x · W_r, and the positive part. Read at entry (p, q): a product of matrices is the sum over
  the contracted channel of row p against column q, the bias row laid over the rows is the bias at q, and the positive
  part is the maximum with zero. The aggregated features are kept as ONE term, never opened.
-/
import proofs.«148888_j70763881169369_1_alg».proof.Proof.Gen.ReferenceIdeal.Read
import proofs.«148888_j70763881169369_1_alg».proof.Proof.Spec

noncomputable section

open scoped BigOperators

namespace Cert.Sage

open Cert.ReferenceIdeal Cert.ReferenceIdeal.Read Idealize.ShloMosaic Idealize.ShloMosaic.ValueIdx

/-- The reference's last stage is the layer applied to its own aggregated features (the stage `val_main_v22`), the node
    features and the parameters. -/
theorem reference_eq (x0 : (⟨S50000x128, .f32⟩ : BufTy).Contents (Elt Ideal)) (x1 : (⟨S2x500000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4 = Cert.Spec.sage (val_main_v22 (F := Ideal) x0 x1) x0 x2 x4 x3 := by
  funext j
  obtain ⟨p, q, rfl⟩ : ∃ (p : Fin 50000) (q : Fin 128), j = ix2 p q := ⟨j 0, j 1, eq_ix2 j⟩
  have el : ∀ k : Fin 128, lidx_main_v23 (ix2 p q) k = ix2 p k := fun k =>
    funext fun a => Fin.ext (by match a with | ⟨0, _⟩ => rfl | ⟨1, _⟩ => rfl)
  have er : ∀ k : Fin 128, ridx_main_v23 (ix2 p q) k = ix2 k q := fun k =>
    funext fun a => Fin.ext (by match a with | ⟨0, _⟩ => rfl | ⟨1, _⟩ => rfl)
  have el' : ∀ k : Fin 128, lidx_main_v27 (ix2 p q) k = ix2 p k := fun k =>
    funext fun a => Fin.ext (by match a with | ⟨0, _⟩ => rfl | ⟨1, _⟩ => rfl)
  have er' : ∀ k : Fin 128, ridx_main_v27 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  rw [Cert.Spec.sage_apply, val_main_v29_apply, val_main_v28_apply, val_main_v26_apply, val_main_v23_apply, val_main_v27_apply,
    val_main_v25_apply, val_main_v24_apply, val_main_call0_v0_apply, val_main_call0_cst_apply]
  simp only [el, er, el', er', eb, Ideal.maximumf_def, Ideal.addf_def, Ideal.ofBits_def, Ideal.ofBits_zero_f32]
  rfl

end Cert.Sage

end
-- ==== Proof.lean ====
/-
  A graph-convolution layer with mean aggregation, computed two ways, is one function on the extended reals.

  Both programs first build the aggregated features `mean` from the node features x and the edge list with the same host
  operations: the rows of the source nodes are gathered, summed per destination node, and divided by the number of
  messages the node receives (at least one). The reference then forms, as whole-array operations,
  max (mean · W_l + b + x · W_r) 0. The kernel's program hands `mean`, x, the two weight matrices and the bias (as one
  row) to a grid of 25 points; point t computes the same expression on rows 2000·t … 2000·t + 1999, narrowing the matrix
  operands to a shorter float format first (the identity on the extended reals) and accumulating each product into a zero
  matrix (the plain sum over the contracted channel).

  Entry (p, q) of either result is max (Σ_k mean p k · W_l k q + b q + Σ_k x p k · W_r k q) 0 in this very grouping
  (Proof/Spec.lean), so no law of arithmetic is needed to compare them and the inputs' finiteness is never used:
  Proof/Payload.lean reads the kernel body's stored value at an entry, Proof/HostSide.lean identifies the two arrays the
  host prefix prepares, Proof/Blocks.lean assembles the 25 blocks into the whole array, Proof/Reference.lean reads the
  reference's last stage at an entry. The idealization rewrote nothing, so `preserves` has nothing to state.
-/
import proofs.«148888_j70763881169369_1_alg».proof.Defs
import proofs.«148888_j70763881169369_1_alg».proof.Proof.Gen.Kernel
import proofs.«148888_j70763881169369_1_alg».proof.Proof.Gen.Kernel.Skeleton
import proofs.«148888_j70763881169369_1_alg».proof.Proof.Gen.Kernel.Launch
import proofs.«148888_j70763881169369_1_alg».proof.Proof.Gen.Kernel.Points
import proofs.«148888_j70763881169369_1_alg».proof.Proof.Gen.Kernel.Frame
import proofs.«148888_j70763881169369_1_alg».proof.Proof.Gen.KernelIdeal
import proofs.«148888_j70763881169369_1_alg».proof.Proof.Gen.KernelIdeal.Skeleton
import proofs.«148888_j70763881169369_1_alg».proof.Proof.Gen.KernelIdeal.Launch
import proofs.«148888_j70763881169369_1_alg».proof.Proof.Gen.KernelIdeal.Points
import proofs.«148888_j70763881169369_1_alg».proof.Proof.Gen.KernelIdeal.Frame
import proofs.«148888_j70763881169369_1_alg».proof.Proof.Gen.ReferenceIdeal
import proofs.«148888_j70763881169369_1_alg».proof.Proof.Gen.Pre_finite_inputs
import proofs.«148888_j70763881169369_1_alg».proof.Proof.Gen.KernelIdeal.Value
import proofs.«148888_j70763881169369_1_alg».proof.Proof.Gen.ReferenceIdeal.Run
import proofs.«148888_j70763881169369_1_alg».proof.Proof.Gen.ReferenceIdeal.Read
import proofs.«148888_j70763881169369_1_alg».proof.Proof.Blocks
import proofs.«148888_j70763881169369_1_alg».proof.Proof.Reference
import Idealize.ShloMosaic.Adequacy
import Idealize.ShloMosaic.Init

noncomputable section

namespace Cert.Proof

open Idealize.ShloMosaic Idealize.SL.Sem

/-- The kernel's program as printed terminates without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a sequence of host operations: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the five arguments both programs end with the layer of those arguments in their result
    arrays: the kernel's by the 25 blocks, the reference's by its last stage read entry by entry. -/
theorem algebraic : Cert.algebraic_KernelIdeal_ReferenceIdeal := by
  intro m ρ m' ρ' _ hagree
  refine ⟨fun c => Cert.Sage.result m c, Cert.Sage.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Sage.reference_eq, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
